-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v9)) (v2 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_v6) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x512 : Shape := ⟨2, ![8, 512]⟩
abbrev S8 : Shape := ⟨1, ![8]⟩
abbrev S4096x16 : Shape := ⟨2, ![4096, 16]⟩
abbrev S4096 : Shape := ⟨1, ![4096]⟩
abbrev S100000x512 : Shape := ⟨2, ![100000, 512]⟩
abbrev S128x512 : Shape := ⟨2, ![128, 512]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S128x512 : S_.BroadcastsInDim S128x512 (![] : Fin 0 → Fin S128x512.rank)
  reducesTo_S128x512_S_d0_1 : S128x512.ReducesTo [0, 1] S_

variable [Facts]

def fn {F : FTy → Type} [FloatOps F] (main_arg0 : IVec S8x512 32) (main_arg1 : IVec S8 32) (main_arg2 : IVec S4096x16 32) (main_arg3 : IVec S4096 32) (main_arg4 : IVec S4096 32) (main_arg5 : FVec F S100000x512 .f32) (main_arg6 : FVec F S128x512 .f32) : IVec S_ 1 :=
  let main_v0 : FVec F S100000x512 .f32 := Host.absf main_arg5
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S128x512 .f32 := Host.absf main_arg6
  let main_cst_0 : FVec F S_ .f32 := constant S_ .f32 0x7F800000#32
  let main_v5 : FVec F S128x512 .f32 := broadcastInDim S128x512 ![] bcast_S_S128x512 main_cst_0
  let main_v6 : IVec S128x512 1 := cmpf .olt main_v4 main_v5
  let main_c_1 : IVec S_ 1 := constantI S_ 1 1#1
  let main_v7 : IVec S_ 1 := (fun x v => Host.reduce IntOp.andi x v reducesTo_S128x512_S_d0_1 h_S_) main_v6 main_c_1
  let main_v8 : IVec S_ 1 := andi main_v3 main_v7
  main_v8
-- ==== Kernel.lean ====
abbrev S8x512 : Shape := ⟨2, ![8, 512]⟩
abbrev S8 : Shape := ⟨1, ![8]⟩
abbrev S4096x16 : Shape := ⟨2, ![4096, 16]⟩
abbrev S4096 : Shape := ⟨1, ![4096]⟩
abbrev S100000x512 : Shape := ⟨2, ![100000, 512]⟩
abbrev S128x512 : Shape := ⟨2, ![128, 512]⟩
abbrev S_ : Shape := ⟨0, ![]⟩
abbrev S8x512x1 : Shape := ⟨3, ![8, 512, 1]⟩
abbrev S8x512x512 : Shape := ⟨3, ![8, 512, 512]⟩
abbrev S4096x512 : Shape := ⟨2, ![4096, 512]⟩
abbrev S4096x128 : Shape := ⟨2, ![4096, 128]⟩
abbrev S1024x512 : Shape := ⟨2, ![1024, 512]⟩
abbrev S1024x128 : Shape := ⟨2, ![1024, 128]⟩
abbrev S512x128 : Shape := ⟨2, ![512, 128]⟩
abbrev S1024 : Shape := ⟨1, ![1024]⟩
abbrev S1024x1 : Shape := ⟨2, ![1024, 1]⟩
abbrev S128 : Shape := ⟨1, ![128]⟩
abbrev S1x128 : Shape := ⟨2, ![1, 128]⟩
abbrev S8x512x128 : Shape := ⟨3, ![8, 512, 128]⟩

abbrev nBuf : Space → Nat
  | .hbm => 19
  | .vmem => 5
  | .smem => 0
  | _ => 0

abbrev bufTy : (tb : Table) → Fin (tcTables nBuf tb) → BufTy
  | .hbm, ⟨0, _⟩ => ⟨S8x512, .i32⟩
  | .hbm, ⟨1, _⟩ => ⟨S8, .i32⟩
  | .hbm, ⟨2, _⟩ => ⟨S4096x16, .i32⟩
  | .hbm, ⟨3, _⟩ => ⟨S4096, .i32⟩
  | .hbm, ⟨4, _⟩ => ⟨S4096, .i32⟩
  | .hbm, ⟨5, _⟩ => ⟨S100000x512, .f32⟩
  | .hbm, ⟨6, _⟩ => ⟨S128x512, .f32⟩
  | .hbm, ⟨7, _⟩ => ⟨S_, .i32⟩
  | .hbm, ⟨8, _⟩ => ⟨S8x512, .i32⟩
  | .hbm, ⟨9, _⟩ => ⟨S8x512, .i1⟩
  | .hbm, ⟨10, _⟩ => ⟨S_, .i32⟩
  | .hbm, ⟨11, _⟩ => ⟨S8x512, .i32⟩
  | .hbm, ⟨12, _⟩ => ⟨S8x512, .i32⟩
  | .hbm, ⟨13, _⟩ => ⟨S8x512, .i32⟩
  | .hbm, ⟨14, _⟩ => ⟨S8x512x1, .i32⟩
  | .hbm, ⟨15, _⟩ => ⟨S8x512x512, .f32⟩
  | .hbm, ⟨16, _⟩ => ⟨S4096x512, .f32⟩
  | .hbm, ⟨17, _⟩ => ⟨S4096x128, .f32⟩
  | .hbm, ⟨18, _⟩ => ⟨S8x512x128, .f32⟩
  | .local _ .vmem, ⟨0, _⟩ => ⟨S1024x512, .f32⟩
  | .local _ .vmem, ⟨1, _⟩ => ⟨S1024x512, .f32⟩
  | .local _ .vmem, ⟨2, _⟩ => ⟨S128x512, .f32⟩
  | .local _ .vmem, ⟨3, _⟩ => ⟨S1024x128, .f32⟩
  | .local _ .vmem, ⟨4, _⟩ => ⟨S1024x128, .f32⟩
  | _, _ => ⟨S8x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S8x512 : S_.BroadcastsInDim S8x512 (![] : Fin 0 → Fin S8x512.rank)
  bcast_S8x512_S8x512x1_0_1 : S8x512.BroadcastsInDim S8x512x1 (![0, 1] : Fin 2 → Fin S8x512x1.rank)
  shapeCasts_S8x512x512_S4096x512 : S8x512x512.ShapeCasts S4096x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S128x512_S128x512_0_0 : ∀ a, (![0, 0] : Fin 2 → Nat) a + S128x512.size a ≤ S128x512.size a
  h_S128x512 : 0 < S128x512.numel
  transposes_S128x512_p1_0_S512x128 : S128x512.Transposes [1, 0] S512x128
  reduces_S1024x512_S1024 : S1024x512.Reduces [1] S1024
  shapeCasts_S1024_S1024x1 : S1024.ShapeCasts S1024x1
  reduces_S128x512_S128 : S128x512.Reduces [1] S128
  shapeCasts_S128_S1x128 : S128.ShapeCasts S1x128
  broadcasts_S1024x1_S1024x128 : S1024x1.Broadcasts S1024x128
  broadcasts_S1x128_S1024x128 : S1x128.Broadcasts S1024x128
  inb_S1024x128_S1024x128_0_0 : ∀ a, (![0, 0] : Fin 2 → Nat) a + S1024x128.size a ≤ S1024x128.size a
  h_S1024x128 : 0 < S1024x128.numel
  shapeCasts_S4096x128_S8x512x128 : S4096x128.ShapeCasts S8x512x128
  gather_S100000x512_S8x512x1_S8x512x512_2_0_n_n_0_2_1512_wf : GatherDims.WF S100000x512 S8x512x1 S8x512x512 [2] [0] [] [0] [] 2 ![1, 512]
  dot_S1024x512_S512x128_S1024x128_1_0_0_1_n_n_wf : DotDims.WF S1024x512 S512x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S4096x512.size a
  hwx0_0 : ∀ i : grid0.Coords, EltTy.bits .f32 = 32 ∨ (Rect.block (s := S4096x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x512.size a ≤ S128x512.size a
  hwx0_1 : ∀ i : grid0.Coords, EltTy.bits .f32 = 32 ∨ (Rect.block (s := S128x512) S128x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S4096x128.size a
  hwx0_2 : ∀ i : grid0.Coords, EltTy.bits .f32 = 32 ∨ (Rect.block (s := S4096x128) S1024x128.size (cc0_transform_2 i) (hinb0_2 i)).WholeWords (EltTy.packing .f32)

variable [Facts₀]

def gather_S100000x512_S8x512x1_S8x512x512_2_0_n_n_0_2_1512 : GatherDims S100000x512 S8x512x1 S8x512x512 where
  offsetDims := [2]
  collapsedSliceDims := [0]
  operandBatchingDims := []
  startIndicesBatchingDims := []
  startIndexMap := [0]
  indexVectorDim := 2
  sliceSizes := ![1, 512]
  wf := gather_S100000x512_S8x512x1_S8x512x512_2_0_n_n_0_2_1512_wf
def dot_S1024x512_S512x128_S1024x128_1_0_0_1_n_n : DotDims S1024x512 S512x128 S1024x128 where
  lhsContracting := [1]
  rhsContracting := [0]
  lhsNonContracting := [0]
  rhsNonContracting := [1]
  lhsBatch := []
  rhsBatch := []
  wf := dot_S1024x512_S512x128_S1024x128_1_0_0_1_n_n_wf

abbrev win0_0 : Pipeline.Window sig grid0 :=
  Pipeline.Window.ofSpec (Memref.whole main_v7) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg6) S128x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1024x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x512 : Shape := ⟨2, ![8, 512]⟩
abbrev S8 : Shape := ⟨1, ![8]⟩
abbrev S4096x16 : Shape := ⟨2, ![4096, 16]⟩
abbrev S4096 : Shape := ⟨1, ![4096]⟩
abbrev S100000x512 : Shape := ⟨2, ![100000, 512]⟩
abbrev S128x512 : Shape := ⟨2, ![128, 512]⟩
abbrev S_ : Shape := ⟨0, ![]⟩
abbrev S8x512x1 : Shape := ⟨3, ![8, 512, 1]⟩
abbrev S8x512x512 : Shape := ⟨3, ![8, 512, 512]⟩
abbrev S8x512x128 : Shape := ⟨3, ![8, 512, 128]⟩
abbrev S128 : Shape := ⟨1, ![128]⟩
abbrev S1x1x128 : Shape := ⟨3, ![1, 1, 128]⟩

abbrev nBuf : Space → Nat
  | .hbm => 34
  | .vmem => 0
  | .smem => 0
  | _ => 0

abbrev bufTy : (tb : Table) → Fin (tcTables nBuf tb) → BufTy
  | .hbm, ⟨0, _⟩ => ⟨S8x512, .i32⟩
  | .hbm, ⟨1, _⟩ => ⟨S8, .i32⟩
  | .hbm, ⟨2, _⟩ => ⟨S4096x16, .i32⟩
  | .hbm, ⟨3, _⟩ => ⟨S4096, .i32⟩
  | .hbm, ⟨4, _⟩ => ⟨S4096, .i32⟩
  | .hbm, ⟨5, _⟩ => ⟨S100000x512, .f32⟩
  | .hbm, ⟨6, _⟩ => ⟨S128x512, .f32⟩
  | .hbm, ⟨7, _⟩ => ⟨S_, .i32⟩
  | .hbm, ⟨8, _⟩ => ⟨S8x512, .i32⟩
  | .hbm, ⟨9, _⟩ => ⟨S8x512, .i1⟩
  | .hbm, ⟨10, _⟩ => ⟨S_, .i32⟩
  | .hbm, ⟨11, _⟩ => ⟨S8x512, .i32⟩
  | .hbm, ⟨12, _⟩ => ⟨S8x512, .i32⟩
  | .hbm, ⟨13, _⟩ => ⟨S8x512, .i32⟩
  | .hbm, ⟨14, _⟩ => ⟨S8x512x1, .i32⟩
  | .hbm, ⟨15, _⟩ => ⟨S8x512x512, .f32⟩
  | .hbm, ⟨16, _⟩ => ⟨S8x512x128, .f32⟩
  | .hbm, ⟨17, _⟩ => ⟨S8x512x512, .f32⟩
  | .hbm, ⟨18, _⟩ => ⟨S_, .f32⟩
  | .hbm, ⟨19, _⟩ => ⟨S8x512, .f32⟩
  | .hbm, ⟨20, _⟩ => ⟨S8x512, .f32⟩
  | .hbm, ⟨21, _⟩ => ⟨S128x512, .f32⟩
  | .hbm, ⟨22, _⟩ => ⟨S_, .f32⟩
  | .hbm, ⟨23, _⟩ => ⟨S128, .f32⟩
  | .hbm, ⟨24, _⟩ => ⟨S128, .f32⟩
  | .hbm, ⟨25, _⟩ => ⟨S8x512x1, .f32⟩
  | .hbm, ⟨26, _⟩ => ⟨S1x1x128, .f32⟩
  | .hbm, ⟨27, _⟩ => ⟨S8x512x128, .f32⟩
  | .hbm, ⟨28, _⟩ => ⟨S8x512x128, .f32⟩
  | .hbm, ⟨29, _⟩ => ⟨S8x512x128, .f32⟩
  | .hbm, ⟨30, _⟩ => ⟨S_, .f32⟩
  | .hbm, ⟨31, _⟩ => ⟨S8x512x128, .f32⟩
  | .hbm, ⟨32, _⟩ => ⟨S8x512x128, .f32⟩
  | .hbm, ⟨33, _⟩ => ⟨S8x512x128, .f32⟩
  | _, _ => ⟨S8x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_call0_v0 : Ref sig .tc := ⟨.hbm, 17, rfl⟩
abbrev main_call0_cst : Ref sig .tc := ⟨.hbm, 18, rfl⟩
abbrev main_call0_v1 : Ref sig .tc := ⟨.hbm, 19, rfl⟩
abbrev main_v8 : Ref sig .tc := ⟨.hbm, 20, rfl⟩
abbrev main_call1_v0 : Ref sig .tc := ⟨.hbm, 21, rfl⟩
abbrev main_call1_cst : Ref sig .tc := ⟨.hbm, 22, rfl⟩
abbrev main_call1_v1 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩

abbrev nD : Nat := 1
abbrev τ : Topo := Topo.v7x

variable {F : FTy → Type} [FloatOps F]

class Facts₀ : Prop where
  bcast_S_S8x512 : S_.BroadcastsInDim S8x512 (![] : Fin 0 → Fin S8x512.rank)
  bcast_S8x512_S8x512x1_0_1 : S8x512.BroadcastsInDim S8x512x1 (![0, 1] : Fin 2 → Fin S8x512x1.rank)
  reducesTo_S8x512x512_S8x512_d2 : S8x512x512.ReducesTo [2] S8x512
  h_S_ : 0 < S_.numel
  reducesTo_S128x512_S128_d1 : S128x512.ReducesTo [1] S128
  bcast_S128_S1x1x128_2 : S128.BroadcastsInDim S1x1x128 (![2] : Fin 1 → Fin S1x1x128.rank)
  bcast_S8x512x1_S8x512x128_0_1_2 : S8x512x1.BroadcastsInDim S8x512x128 (![0, 1, 2] : Fin 3 → Fin S8x512x128.rank)
  bcast_S1x1x128_S8x512x128_0_1_2 : S1x1x128.BroadcastsInDim S8x512x128 (![0, 1, 2] : Fin 3 → Fin S8x512x128.rank)
  bcast_S_S8x512x128 : S_.BroadcastsInDim S8x512x128 (![] : Fin 0 → Fin S8x512x128.rank)
  gather_S100000x512_S8x512x1_S8x512x512_2_0_n_n_0_2_1512_wf : GatherDims.WF S100000x512 S8x512x1 S8x512x512 [2] [0] [] [0] [] 2 ![1, 512]
  dot_S8x512x512_S128x512_S8x512x128_2_1_01_0_n_n_wf : DotDims.WF S8x512x512 S128x512 S8x512x128 [2] [1] [0, 1] [0] [] []

variable [Facts₀]

def gather_S100000x512_S8x512x1_S8x512x512_2_0_n_n_0_2_1512 : GatherDims S100000x512 S8x512x1 S8x512x512 where
  offsetDims := [2]
  collapsedSliceDims := [0]
  operandBatchingDims := []
  startIndicesBatchingDims := []
  startIndexMap := [0]
  indexVectorDim := 2
  sliceSizes := ![1, 512]
  wf := gather_S100000x512_S8x512x1_S8x512x512_2_0_n_n_0_2_1512_wf
def dot_S8x512x512_S128x512_S8x512x128_2_1_01_0_n_n : DotDims S8x512x512 S128x512 S8x512x128 where
  lhsContracting := [2]
  rhsContracting := [1]
  lhsNonContracting := [0, 1]
  rhsNonContracting := [0]
  lhsBatch := []
  rhsBatch := []
  wf := dot_S8x512x512_S128x512_S8x512x128_2_1_01_0_n_n_wf

class Facts : Prop extends Facts₀ where

variable [Facts]
-- ==== Proof.CosineSpec.lean ====
/-
  The cosine similarity of every gathered word vector with every label vector, as one function of the arrays.

  For two rows `a`, `l` of the same length the entry is `(Σ a·l) / max (√(Σ a²) · √(Σ l²)) ε` on the extended
  reals, `ε` the value of the single-precision word 0x322BCC77 (never evaluated: both programs carry the same word).
  `flatCos` states it over a [4096, 512] array of word vectors (row r, label l), `cubeCos` over the same vectors
  arranged [8, 512, 512] (sentence b, position s, label l). The two are one array up to the row-major
  re-arrangement r = 512·b + s: `reshape_flatCos`.
-/
import Idealize.ShloMosaic.PureOps.Ideal
import Idealize.ShloMosaic.Lib.ValueIdx
import Idealize.ShloMosaic.Lib.Pipeline.Value

noncomputable section

namespace Cert.Cosine

open Idealize.ShloMosaic Idealize.ShloMosaic.ValueIdx

/-- The floor under the product of the two norms. -/
def eps : EReal := Ideal.ofBits .f32 0x322BCC77#32

/-- The cosine of two rows: their inner product over the floored product of their Euclidean norms. -/
def rowCos {n : Nat} (a l : Fin n → EReal) : EReal :=
  Ideal.div (∑ d : Fin n, a d * l d)
    (max (Ideal.sqrt (∑ d : Fin n, a d * a d) * Ideal.sqrt (∑ d : Fin n, l d * l d)) eps)

/-- Row `r` of the word vectors against row `l` of the label vectors, for the vectors laid out [4096, 512]. -/
def flatCos (A : (⟨2, ![4096, 512]⟩ : Shape).Idx → EReal) (Lb : (⟨2, ![128, 512]⟩ : Shape).Idx → EReal) :
    (⟨2, ![4096, 128]⟩ : Shape).Idx → EReal := fun j =>
  rowCos (fun d : Fin 512 => A (ix2 (⟨(j 0).val, (j 0).isLt⟩ : Fin 4096) d))
    (fun d : Fin 512 => Lb (ix2 (⟨(j 1).val, (j 1).isLt⟩ : Fin 128) d))

theorem flatCos_apply (A : (⟨2, ![4096, 512]⟩ : Shape).Idx → EReal) (Lb : (⟨2, ![128, 512]⟩ : Shape).Idx → EReal)
    (r : Fin 4096) (l : Fin 128) :
    flatCos A Lb (ix2 r l) = rowCos (fun d : Fin 512 => A (ix2 r d)) (fun d : Fin 512 => Lb (ix2 l d)) := rfl

/-- The same for the vectors laid out [8, 512, 512]: the word at (b, s) against label `l`. -/
def cubeCos (W : (⟨3, ![8, 512, 512]⟩ : Shape).Idx → EReal) (Lb : (⟨2, ![128, 512]⟩ : Shape).Idx → EReal) :
    (⟨3, ![8, 512, 128]⟩ : Shape).Idx → EReal := fun i =>
  rowCos (fun d : Fin 512 => W (ix3 (⟨(i 0).val, (i 0).isLt⟩ : Fin 8) (⟨(i 1).val, (i 1).isLt⟩ : Fin 512) d))
    (fun d : Fin 512 => Lb (ix2 (⟨(i 2).val, (i 2).isLt⟩ : Fin 128) d))

theorem cubeCos_apply (W : (⟨3, ![8, 512, 512]⟩ : Shape).Idx → EReal) (Lb : (⟨2, ![128, 512]⟩ : Shape).Idx → EReal)
    (b : Fin 8) (s : Fin 512) (l : Fin 128) :
    cubeCos W Lb (ix3 b s l) = rowCos (fun d : Fin 512 => W (ix3 b s d)) (fun d : Fin 512 => Lb (ix2 l d)) := rfl

/-- Flattening the word vectors to [4096, 512], taking the cosines there and arranging the result [8, 512, 128] gives
    the cosines of the [8, 512, 512] arrangement: entry (b, s, l) sits at row-major position (512·b + s)·128 + l, and
    row 512·b + s of the flattened vectors is the vector at (b, s). -/
theorem reshape_flatCos (W : (⟨3, ![8, 512, 512]⟩ : Shape).Idx → EReal) (Lb : (⟨2, ![128, 512]⟩ : Shape).Idx → EReal)
    (h1 : (⟨3, ![8, 512, 512]⟩ : Shape).ShapeCasts ⟨2, ![4096, 512]⟩)
    (h2 : (⟨2, ![4096, 128]⟩ : Shape).ShapeCasts ⟨3, ![8, 512, 128]⟩) :
    shapeCast ⟨3, ![8, 512, 128]⟩ (flatCos (shapeCast ⟨2, ![4096, 512]⟩ W h1) Lb) h2 = cubeCos W Lb := by
  funext i
  obtain ⟨b, s, l, rfl⟩ : ∃ (b : Fin 8) (s : Fin 512) (l : Fin 128), i = ix3 b s l := ⟨i 0, i 1, i 2, eq_ix3 i⟩
  have hr : b.val * 512 + s.val < 4096 := by have := b.isLt; have := s.isLt; omega
  refine (shapeCast_apply _ h2 (ix3 b s l) (ix2 (⟨b.val * 512 + s.val, hr⟩ : Fin 4096) l) (by
    rw [Shape.rowMajor_val_two, Shape.rowMajor_val_three]; rfl)).trans ?_
  rw [flatCos_apply, cubeCos_apply]
  refine congrArg (fun a => rowCos a _) (funext fun d => ?_)
  exact shapeCast_apply W h1 (ix2 (⟨b.val * 512 + s.val, hr⟩ : Fin 4096) d) (ix3 b s d) (by
    rw [Shape.rowMajor_val_two, Shape.rowMajor_val_three]; rfl)

end Cert.Cosine

end
-- ==== Proof.LibColumn.lean ====
/-
  Rank-2 "keepdims" forms read at an index given by coordinates, for any extents a × b:
  a vector [a] cast to a column [a, 1] (`shapeCast_a_a1_apply`), a column [a, 1] broadcast across b lanes
  (`broadcastTo_a1_ab_apply`), and the sum of a matrix along its last axis, on the extended reals, as a sum over
  the lane coordinate (`sum_last_apply`). Together with the row forms [a] → [1, a] → [b, a] of the layout library
  they read `sum(x·x, axis=-1, keepdims=True)`-style expressions entry by entry.
-/
import Idealize.ShloMosaic.Lib.ValueLayout
import Idealize.ShloMosaic.PureOps.Ideal.Laws

noncomputable section

namespace Cert.LibColumn

open Idealize.ShloMosaic Idealize.ShloMosaic.ValueIdx

variable {α : Type}

/-- An `[a]` array cast to `[a, 1]` reads, at `(i, u)`, the operand at `i`, whatever the unit coordinate `u`:
    both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry in row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum of an `[a, b]` matrix along its last axis, read at row `p` on the extended reals, is the sum over the
    lane coordinate of that row's entries (the accumulator word is the neutral one, zero). -/
theorem sum_last_apply {a b : ℕ} (x : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (p : Fin a) :
    multiReduction .add [1] ⟨1, ![a]⟩ x 0x00000000#32 h hφ hacc (ix1 p) = ∑ d : Fin b, x (ix2 p d) := by
  refine (Ideal.multiReduction_add_single x 0x00000000#32 h hφ hacc (ix1 p)).trans ?_
  show ∑ d : Fin b, x (h.lift (ix1 p) d) = ∑ d : Fin b, x (ix2 p d)
  refine Finset.sum_congr rfl fun d _ => congrArg x (funext fun c => Fin.ext ?_)
  match c with
  | ⟨0, _⟩ => rfl
  | ⟨1, _⟩ => rfl

end Cert.LibColumn

end
-- ==== Proof.BlockCosine.lean ====
/-
  What the kernel body computes from one block of 1024 word vectors and the 128 label vectors, entry by entry.

  At the extended reals the body's stored value at (p, q) is the cosine of row p of the word block with row q of the
  labels: the matrix product against the transposed labels is the inner product Σ_d a(p,d)·l(q,d); the row sums of
  squares, their square roots, the column and row broadcasts give the two norms at (p, q); the floor and the quotient
  are taken entry by entry.
-/
import proofs.«141863_j2628519985196_1_alg».proof.Proof.Gen.KernelIdeal.Skeleton
import proofs.«141863_j2628519985196_1_alg».proof.Proof.CosineSpec
import proofs.«141863_j2628519985196_1_alg».proof.Proof.LibColumn
import Idealize.ShloMosaic.Lib.ValueLayout
import Idealize.ShloMosaic.Lib.ValueIdx
import Idealize.ShloMosaic.PureOps.Ideal.Laws

noncomputable section

namespace Cert.KernelIdeal.Block

open Cert.KernelIdeal Cert.KernelIdeal.Gen Idealize.ShloMosaic Idealize.ShloMosaic.ValueIdx Cert.Cosine Cert.LibColumn

/-- The left factor's row coordinate is the output's row coordinate (axis 0 of the block is not contracted). -/
theorem lhs_row (j : S1024x128.Idx) (k : dot_S1024x512_S512x128_S1024x128_1_0_0_1_n_n.contr.Idx) :
    (dot_S1024x512_S512x128_S1024x128_1_0_0_1_n_n.lhsIdx j k 0).val = (j 0).val := by
  unfold DotDims.lhsIdx
  rw [dif_neg (show ¬(0 : Fin S1024x512.rank) ∈ dot_S1024x512_S512x128_S1024x128_1_0_0_1_n_n.lhsBatch by decide), dif_pos (show (0 : Fin S1024x512.rank) ∈ dot_S1024x512_S512x128_S1024x128_1_0_0_1_n_n.lhsNonContracting by decide)]
  rfl

/-- The right factor's column coordinate is the output's column coordinate (axis 1 of the transposed labels is not
    contracted). -/
theorem rhs_col (j : S1024x128.Idx) (k : dot_S1024x512_S512x128_S1024x128_1_0_0_1_n_n.contr.Idx) :
    (dot_S1024x512_S512x128_S1024x128_1_0_0_1_n_n.rhsIdx j k 1).val = (j 1).val := by
  unfold DotDims.rhsIdx
  rw [dif_neg (show ¬(1 : Fin S512x128.rank) ∈ dot_S1024x512_S512x128_S1024x128_1_0_0_1_n_n.rhsBatch by decide), dif_pos (show (1 : Fin S512x128.rank) ∈ dot_S1024x512_S512x128_S1024x128_1_0_0_1_n_n.rhsNonContracting by decide)]
  rfl

/-- The product of a word block with the transposed labels, into a zero accumulator, at (p, q): the inner product of
    word row p and label row q. The contraction runs over the block's lane axis and the transposed labels' row axis,
    and the transposed labels at (d, q) are the labels at (q, d). -/
theorem dot_apply (a : FVec Ideal S1024x512 .f32) (l : FVec Ideal S128x512 .f32) (ht : S128x512.Transposes [1, 0] S512x128)
    (p : Fin 1024) (q : Fin 128) :
    matmul dot_S1024x512_S512x128_S1024x128_1_0_0_1_n_n none a (transpose S512x128 [1, 0] l ht)
        (constant (F := Ideal) S1024x128 .f32 0x00000000#32) (ix2 p q)
      = ∑ d : Fin 512, a (ix2 p d) * l (ix2 q d) := by
  simp only [matmul]
  rw [Ideal.matmul_constant_zero_apply, ← Equiv.sum_comp (contrEquiv1 dot_S1024x512_S512x128_S1024x128_1_0_0_1_n_n 512 rfl rfl).symm]
  refine Finset.sum_congr rfl fun k _ => ?_
  have hk := contrEquiv1_symm_val dot_S1024x512_S512x128_S1024x128_1_0_0_1_n_n 512 rfl rfl k
  have el : dot_S1024x512_S512x128_S1024x128_1_0_0_1_n_n.lhsIdx (ix2 p q) ((contrEquiv1 dot_S1024x512_S512x128_S1024x128_1_0_0_1_n_n 512 rfl rfl).symm k) = ix2 p k := funext fun c => Fin.ext (by
    match c with
    | ⟨0, _⟩ => exact lhs_row _ _
    | ⟨1, _⟩ => exact (dot_S1024x512_S512x128_S1024x128_1_0_0_1_n_n.lhsIdx_val_of_single rfl _ _).trans hk)
  have er : dot_S1024x512_S512x128_S1024x128_1_0_0_1_n_n.rhsIdx (ix2 p q) ((contrEquiv1 dot_S1024x512_S512x128_S1024x128_1_0_0_1_n_n 512 rfl rfl).symm k) = ix2 k q := funext fun c => Fin.ext (by
    match c with
    | ⟨0, _⟩ => exact (dot_S1024x512_S512x128_S1024x128_1_0_0_1_n_n.rhsIdx_val_of_single rfl _ _).trans hk
    | ⟨1, _⟩ => exact rhs_col _ _)
  rw [el, er, transpose_ix2_apply]

/-- The word norms, as the body spreads them over the block: at (p, q) the square root of row p's sum of squares. -/
theorem wordNorm_apply (x : FVec Ideal S1024x512 .f32) (hr : S1024x512.Reduces [1] S1024) (hφ : FKind.Formats .f32)
    (hacc : (0x00000000#32 : BitVec 32) = FKind.add.neutral .f32 hφ) (hc : S1024.ShapeCasts S1024x1)
    (hb : S1024x1.Broadcasts S1024x128) (p : Fin 1024) (q : Fin 128) :
    broadcastTo S1024x128 (sqrt (shapeCast S1024x1 (multiReduction .add [1] S1024 (mulf x x) 0x00000000#32 hr hφ hacc) hc)) hb (ix2 p q)
      = Ideal.sqrt (∑ d : Fin 512, x (ix2 p d) * x (ix2 p d)) := by
  refine (broadcastTo_a1_ab_apply _ hb p q).trans ?_
  refine congrArg Ideal.sqrt ?_
  refine (shapeCast_a_a1_apply _ hc p 0).trans ?_
  exact sum_last_apply (mulf x x) hr hφ hacc p

/-- The label norms likewise: at (p, q) the square root of label row q's sum of squares. -/
theorem labelNorm_apply (x : FVec Ideal S128x512 .f32) (hr : S128x512.Reduces [1] S128) (hφ : FKind.Formats .f32)
    (hacc : (0x00000000#32 : BitVec 32) = FKind.add.neutral .f32 hφ) (hc : S128.ShapeCasts S1x128)
    (hb : S1x128.Broadcasts S1024x128) (p : Fin 1024) (q : Fin 128) :
    broadcastTo S1024x128 (shapeCast S1x128 (sqrt (multiReduction .add [1] S128 (mulf x x) 0x00000000#32 hr hφ hacc)) hc) hb (ix2 p q)
      = Ideal.sqrt (∑ d : Fin 512, x (ix2 q d) * x (ix2 q d)) := by
  refine (broadcastTo_1b_ab_apply _ hb p q).trans ?_
  refine (shapeCast_a_1a_apply _ hc 0 q).trans ?_
  exact congrArg Ideal.sqrt (sum_last_apply (mulf x x) hr hφ hacc q)

/-- THE BODY'S VALUE at (p, q) is the cosine of word row p and label row q. -/
theorem pay_apply (x0 : Vec Ideal S1024x512 .f32) (x1 : Vec Ideal S128x512 .f32) (p : Fin 1024) (q : Fin 128) :
    k0_pay1 (F := Ideal) x0 x1 (ix2 p q) = rowCos (fun d : Fin 512 => x0 (ix2 p d)) (fun d : Fin 512 => x1 (ix2 q d)) := by
  unfold k0_pay1 rowCos
  refine congrArg₂ Ideal.div ?_ (congrArg₂ max (congrArg₂ (fun a b : EReal => a * b) ?_ ?_) rfl)
  · refine (dot_apply _ x1 _ p q).trans ?_
    rw [shapeCast_self]
  · refine (wordNorm_apply _ _ _ _ _ _ p q).trans ?_
    rw [shapeCast_self]
  · exact labelNorm_apply x1 _ _ _ _ _ p q

end Cert.KernelIdeal.Block

end
-- ==== Proof.KernelArray.lean ====
/-
  From the body's blocks to the kernel program's results.

  The grid has four points; point t reads rows 1024·t … 1024·t + 1023 of the flattened word vectors and all of the
  label table, and writes rows 1024·t … 1024·t + 1023 of the [4096, 128] output. So what point t writes back is block t
  of ONE array, `flatCos` of the flattened vectors and the labels (`flushed_eq`), the four blocks tile the output
  (`cover`), and the output array after the region is that array (`final`).
  Around the region: the word vectors are gathered from the table and flattened before it (`V_gathered`,
  `V_flat`), and the output is arranged [8, 512, 128] after it (`tail_cos`), which by the row-major law of
  `reshape_flatCos` is `cubeCos` of the gathered vectors. The gather is carried as one opaque array.
-/
import proofs.«141863_j2628519985196_1_alg».proof.Proof.Gen.KernelIdeal.Frame
import proofs.«141863_j2628519985196_1_alg».proof.Proof.BlockCosine
import proofs.«141863_j2628519985196_1_alg».proof.Proof.CosineSpec
import Idealize.ShloMosaic.Lib.Pipeline.Value
import Idealize.ShloMosaic.Lib.StableHlo.Run
import Idealize.ShloMosaic.Lib.ValueIdx
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Array

open Cert.KernelIdeal Cert.KernelIdeal.Gen Cert.KernelIdeal.Block Cert.Cosine Idealize.ShloMosaic.ValueIdx Idealize.ShloMosaic.StableHlo

variable (m : (ℓ : Loc nD τ sig) → Buf (Elt Ideal) ℓ) (ρ : Dev nD → PrngReg)

theorem hz : (![0, 0] : Fin 2 → Nat) = fun _ => 0 := funext fun a => by fin_cases a <;> rfl

/-! ## One block -/

/-- An entry of the body's value is an entry of `flatCos` of two arrays, as soon as the word block's row is a row of
    the first array and the label block is the second array. -/
theorem entry_of_blocks (x0 : Vec Ideal S1024x512 .f32) (x1 : Vec Ideal S128x512 .f32)
    (A : S4096x512.Idx → EReal) (Lb : S128x512.Idx → EReal) (y : S1024x128.Idx) (i : S4096x128.Idx)
    (h0 : ∀ d : Fin 512, x0 (ix2 (⟨(y 0).val, (y 0).isLt⟩ : Fin 1024) d) = A (ix2 (⟨(i 0).val, (i 0).isLt⟩ : Fin 4096) d))
    (h1 : ∀ (q : Fin 128) (d : Fin 512), x1 (ix2 q d) = Lb (ix2 q d))
    (hi : (i 1).val = (y 1).val) :
    k0_pay1 (F := Ideal) x0 x1 y = flatCos A Lb i := by
  obtain ⟨p, q, rfl⟩ : ∃ (p : Fin 1024) (q : Fin 128), y = ix2 p q := ⟨y 0, y 1, eq_ix2 y⟩
  obtain ⟨r, q', rfl⟩ : ∃ (r : Fin 4096) (q' : Fin 128), i = ix2 r q' := ⟨i 0, i 1, eq_ix2 i⟩
  obtain rfl : q' = q := Fin.ext hi
  rw [pay_apply, flatCos_apply]
  simp only [h1]
  exact congrArg (fun a => rowCos a _) (funext fun d => h0 d)

/-! ## The index maps, decided over the four points -/

/-- The word window moves with the output window along the rows and stays at lane block 0; the label window stays
    at block (0, 0); the output window stays at lane block 0 and its row block is one of 0 … 3. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 3 :=
  (by decide +kernel : ∀ t : Fin grid0.N, _)

/-- Every row block of the output is some point's. -/
theorem idx_onto : ∀ q0 : Fin 4, ∃ t : Fin cfg0.N, win0_2.index t = ![q0.val, 0] :=
  (by decide +kernel : ∀ q0 : Fin 4, ∃ t : Fin grid0.N, win0_2.index t = ![q0.val, 0])

/-- The word window's block at point `t`, at `y`, is the flattened vectors at row (block index)·1024 + y₀, lane y₁. -/
theorem wordBlock_apply (c : Dev nD) (t : Fin cfg0.N) (y : S1024x512.Idx) (k : S4096x512.Idx)
    (hk0 : (k 0).val = win0_2.index t (0 : Fin 2) * 1024 + (y 0).val) (hk1 : (k 1).val = (y 1).val) :
    iblk m c 0 t y = V m c main_v7 k := by
  obtain ⟨e0, e1, e2, e3, e4, e5⟩ := idx_facts t
  show V m c main_v7 (((cfg0.win 0).blk t).view.emb y) = V m c main_v7 k
  refine congrArg (V m c main_v7) (funext fun a => Fin.ext ?_)
  match a with
  | ⟨0, _⟩ => show win0_0.index t (0 : Fin 2) * 1024 + 1 * (y 0).val = (k 0).val; omega
  | ⟨1, _⟩ => show win0_0.index t (1 : Fin 2) * 512 + 1 * (y 1).val = (k 1).val; omega

/-- The label window's block at every point is the whole label table. -/
theorem labelBlock_apply (c : Dev nD) (t : Fin cfg0.N) (y : S128x512.Idx) :
    iblk m c 1 t y = V m c main_arg6 y := by
  obtain ⟨e0, e1, e2, e3, e4, e5⟩ := idx_facts t
  show V m c main_arg6 (((cfg0.win 1).blk t).view.emb y) = V m c main_arg6 y
  refine congrArg (V m c main_arg6) (funext fun a => Fin.ext ?_)
  match a with
  | ⟨0, _⟩ => show win0_1.index t (0 : Fin 2) * 128 + 1 * (y 0).val = (y 0).val; omega
  | ⟨1, _⟩ => show win0_1.index t (1 : Fin 2) * 512 + 1 * (y 1).val = (y 1).val; omega

/-! ## The output array after the region -/

/-- WHAT POINT `t` WRITES BACK is block `t` of `flatCos` of the flattened vectors and the label table, as the region
    finds them. -/
theorem flushed_eq (c : Dev nD) (t : Fin cfg0.N) :
    (dats m 0 c).flushed 2 t
      = ((cfg0.win 2).blk t).view.read (Elt Ideal) (flatCos (V m c main_v7) (V m c main_arg6)) := by
  show (cfg0.win 2).cut (grid0.coords t) ((dats m 0 c).after 2 t) = _
  rw [after0_2]
  unfold out0_2
  rw [View.canon_unit_zero hz]
  simp only [View.ld_unit_zero (S := S1024x512) hz, View.ld_unit_zero (S := S128x512) hz]
  obtain ⟨e0, e1, e2, e3, e4, e5⟩ := idx_facts t
  funext j
  show k0_pay1 (F := Ideal) (iblk m c 0 t) (iblk m c 1 t) j
    = flatCos (V m c main_v7) (V m c main_arg6) (((cfg0.win 2).blk t).view.emb j)
  refine entry_of_blocks (iblk m c 0 t) (iblk m c 1 t) (V m c main_v7) (V m c main_arg6) j
    (((cfg0.win 2).blk t).view.emb j) (fun d => ?_) (fun q d => ?_) ?_
  · refine wordBlock_apply m c t _ _ ?_ rfl
    show (((cfg0.win 2).blk t).view.emb j 0).val = win0_2.index t (0 : Fin 2) * 1024 + (j 0).val
    show win0_2.index t (0 : Fin 2) * 1024 + 1 * (j 0).val = win0_2.index t (0 : Fin 2) * 1024 + (j 0).val
    omega
  · exact labelBlock_apply m c t _
  · show win0_2.index t (1 : Fin 2) * 128 + 1 * (j 1).val = (j 1).val
    omega

/-- An index of the output is in point `t`'s block iff each coordinate is in the block's range on its axis. -/
theorem mem_blk (t : Fin cfg0.N) (i : S4096x128.Idx) :
    i ∈ ((cfg0.win 2).blk t).view.set ↔ ∀ a : Fin 2, win0_2.index t a * S1024x128.size a ≤ (i a).val ∧ (i a).val < win0_2.index t a * S1024x128.size a + S1024x128.size a := by
  show i ∈ ((View.whole main_v8).slice (win0_2.rect t)).set ↔ _
  rw [View.set_slice_whole, Rect.mem_set_unit]
  exact Iff.rfl

/-- The four blocks tile the output: row r lies in the block of the point with row block r / 1024. -/
theorem cover (i : S4096x128.Idx) :
    ∃ t : Fin cfg0.N, (cfg0.win 2).flush t = true ∧ i ∈ ((cfg0.win 2).blk t).view.set := by
  have hi0 : (i 0).val < 4096 := (i 0).isLt
  have hi1 : (i 1).val < 128 := (i 1).isLt
  obtain ⟨t, ht⟩ := idx_onto ⟨(i 0).val / 1024, by omega⟩
  have q0 : win0_2.index t (0 : Fin 2) = (i 0).val / 1024 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 128 ≤ (i 1).val ∧ (i 1).val < win0_2.index t (1 : Fin 2) * 128 + 128; omega

/-- THE OUTPUT ARRAY after the region. -/
theorem final (c : Dev nD) : (dats m 0 c).arrAt 2 cfg0.N = flatCos (V m c main_v7) (V m c main_arg6) :=
  (dats m 0 c).arrAt_eq_of_cover 2 (flatCos (V m c main_v7) (V m c main_arg6)) (fun t _ => flushed_eq m c t) cover

/-! ## The host lines around the region -/

/-- The gathered word vectors, [8, 512, 512]: the embedding table read at the word indices (a negative index
    wrapped by the table's length first). Carried as one array; never opened. -/
def gathered (x0 : (⟨S8x512, .i32⟩ : BufTy).Contents (Elt Ideal)) (x5 : (⟨S100000x512, .f32⟩ : BufTy).Contents (Elt Ideal)) :
    (⟨S8x512x512, .f32⟩ : BufTy).Contents (Elt Ideal) :=
  Host.gather gather_S100000x512_S8x512x1_S8x512x512_2_0_n_n_0_2_1512 x5
    (broadcastInDim S8x512x1 ![0, 1] bcast_S8x512_S8x512x1_0_1
      (select (cmpi .slt x0 (broadcastInDim S8x512 ![] bcast_S_S8x512 (constantI S_ 32 0#32)))
        (addi x0 (broadcastInDim S8x512 ![] bcast_S_S8x512 (constantI S_ 32 100000#32))) x0))

/-- The region finds the gathered vectors in the first result's buffer, -/
theorem V_gathered (c : Dev nD) :
    V m c main_v6 = gathered (m ((c.tc : Thread nD τ).loc main_arg0)) (m ((c.tc : Thread nD τ).loc main_arg5)) := by
  show StableHlo.after hostOps0 (fun b => m (c, b)) (Proc.devRef .tc main_v6) = _
  after_results
  rfl

/-- and, in its first operand's array, the same vectors flattened to [4096, 512]. -/
theorem V_flat (c : Dev nD) :
    (V m c main_v7 : S4096x512.Idx → EReal)
      = shapeCast S4096x512 (gathered (m ((c.tc : Thread nD τ).loc main_arg0)) (m ((c.tc : Thread nD τ).loc main_arg5)))
          shapeCasts_S8x512x512_S4096x512 := by
  show StableHlo.after hostOps0 (fun b => m (c, b)) (Proc.devRef .tc main_v7) = _
  after_results
  rfl

/-- The line after the region arranges the output [8, 512, 128]: the second result is `cubeCos` of the gathered
    vectors and the label table. -/
theorem tail_cos (c : Dev nD) :
    Pipeline.afterTail₀ cfgs (dats m) 0 (V0 m) [hostOps1] c main_v9
      = cubeCos (gathered (m ((c.tc : Thread nD τ).loc main_arg0)) (m ((c.tc : Thread nD τ).loc main_arg5)))
          (m ((c.tc : Thread nD τ).loc main_arg6)) := by
  unfold Pipeline.afterTail₀
  show StableHlo.after hostOps1 _ (Proc.devRef .tc main_v9) = _
  after_results
  have e : Pipeline.withArrays (cfgs 0).spec c (V0 m c) (fun w => (dats m 0 c).arrAt w (cfgs 0).N) (Proc.devRef .tc main_v8)
      = flatCos (V m c main_v7) (V m c main_arg6) :=
    (Pipeline.withArrays_arr spec0 launch0.win.arr_inj c _ _ 2).trans (final m c)
  show shapeCast S8x512x128 (Pipeline.withArrays (cfgs 0).spec c (V0 m c) (fun w => (dats m 0 c).arrAt w (cfgs 0).N) (Proc.devRef .tc main_v8))
      shapeCasts_S4096x128_S8x512x128 = _
  rw [e, V_flat m c, V_main_arg6 m c]
  exact reshape_flatCos _ _ _ _

/-- The line after the region leaves the first result's buffer alone. -/
theorem tail_gathered (c : Dev nD) :
    Pipeline.afterTail₀ cfgs (dats m) 0 (V0 m) [hostOps1] c main_v6
      = gathered (m ((c.tc : Thread nD τ).loc main_arg0)) (m ((c.tc : Thread nD τ).loc main_arg5)) := by
  unfold Pipeline.afterTail₀
  show StableHlo.after hostOps1 _ (Proc.devRef .tc main_v6) = _
  after_results
  rw [Pipeline.withArrays_of_ne _ c (V0 m c) _ main_v6 (by exact (by decide : ∀ w, Pipeline.arrRef spec0 w ≠ main_v6))]
  exact V_gathered m c

/-! ## The run, read -/

/-- Every weakly fair execution of the kernel program ends with the first and third results at the gathered vectors, the
    second at their cosines with the labels, and the arguments unchanged. -/
theorem run : θ_run defs (onTc (τ := τ) (main (F := Ideal))) ⟨m, fun _ => 0, ρ⟩ fun r => ∀ c : Dev nD,
      r.2.mem ((c.tc : Thread nD τ).loc main_v6) = gathered (m ((c.tc : Thread nD τ).loc main_arg0)) (m ((c.tc : Thread nD τ).loc main_arg5))
      ∧ r.2.mem ((c.tc : Thread nD τ).loc main_v9) = cubeCos (gathered (m ((c.tc : Thread nD τ).loc main_arg0)) (m ((c.tc : Thread nD τ).loc main_arg5))) (m ((c.tc : Thread nD τ).loc main_arg6))
      ∧ r.2.mem ((c.tc : Thread nD τ).loc main_v6) = gathered (m ((c.tc : Thread nD τ).loc main_arg0)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    ⟨((h c).2 main_v6 (Pipeline.mem_restRefs_of main_v6 (by decide) (by decide))).trans (tail_gathered m c),
     ((h c).2 main_v9 (Pipeline.mem_restRefs_of main_v9 (by decide) (by decide))).trans (tail_cos m c),
     ((h c).2 main_v6 (Pipeline.mem_restRefs_of main_v6 (by decide) (by decide))).trans (tail_gathered m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c),
     ((h c).2 main_arg4 (Pipeline.mem_restRefs_of main_arg4 (by decide) (by decide))).trans (W_main_arg4 m (dats m) c),
     ((h c).2 main_arg5 (Pipeline.mem_restRefs_of main_arg5 (by decide) (by decide))).trans (W_main_arg5 m (dats m) c),
     ((h c).1 1).trans (((dats m 0 c).arrAt_in 1 rfl _).trans ((A_eq m c 1).trans (V_main_arg6 m c)))⟩)
    (run_main m ρ)

end Cert.KernelIdeal.Array

end
-- ==== Proof.ReferenceCosine.lean ====
/-
  The reference's second result, entry by entry, is the cosine array of the gathered word vectors and the labels.

  Its operations are read one at a time (the generated read-at-an-index lemmas): the quotient of the contraction over
  the feature axis by the floored product of the two norms, each norm the square root of a sum of squares over the
  feature axis, spread over the result by two broadcasts each. Every index the chain visits is (b, s, d) in the gathered
  vectors and (l, d) in the labels, so entry (b, s, l) is `rowCos` of the word at (b, s) and label l. The gather itself
  is never opened: the gathered vectors enter as one array.
-/
import proofs.«141863_j2628519985196_1_alg».proof.Proof.Gen.ReferenceIdeal.Read
import proofs.«141863_j2628519985196_1_alg».proof.Proof.CosineSpec
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx Cert.Cosine

/-- The quotient stage of the reference is `cubeCos` of its gather stage and the label table. -/
theorem quotient_eq_cubeCos (x0 : (⟨S8x512, .i32⟩ : BufTy).Contents (Elt Ideal)) (x5 : (⟨S100000x512, .f32⟩ : BufTy).Contents (Elt Ideal))
    (x6 : (⟨S128x512, .f32⟩ : BufTy).Contents (Elt Ideal)) :
    val_main_v17 (F := Ideal) x0 x5 x6 = cubeCos (val_main_v6 (F := Ideal) x0 x5) x6 := by
  funext i
  obtain ⟨b, s, l, rfl⟩ : ∃ (b : Fin 8) (s : Fin 512) (l : Fin 128), i = ix3 b s l := ⟨i 0, i 1, i 2, eq_ix3 i⟩
  have e1 : ∀ k : Fin 512, lidx_main_v7 (ix3 b s l) k = ix3 b s k := fun k => funext fun a => Fin.ext (by
    match a with | ⟨0, _⟩ => rfl | ⟨1, _⟩ => rfl | ⟨2, _⟩ => rfl)
  have e2 : ∀ k : Fin 512, ridx_main_v7 (ix3 b s l) k = ix2 l k := fun k => funext fun a => Fin.ext (by
    match a with | ⟨0, _⟩ => rfl | ⟨1, _⟩ => rfl)
  have e3 : ∀ k : Fin 512, idx_main_call0_v1 (idx_main_v10 (idx_main_v12 (ix3 b s l))) k = ix3 b s k := fun k => funext fun a => Fin.ext (by
    match a with | ⟨0, _⟩ => rfl | ⟨1, _⟩ => rfl | ⟨2, _⟩ => rfl)
  have e4 : ∀ k : Fin 512, idx_main_call1_v1 (idx_main_v11 (idx_main_v13 (ix3 b s l))) k = ix2 l k := fun k => funext fun a => Fin.ext (by
    match a with | ⟨0, _⟩ => rfl | ⟨1, _⟩ => rfl)
  rw [cubeCos_apply, val_main_v17_apply, val_main_v7_apply, val_main_v16_apply, val_main_v14_apply, val_main_v12_apply,
    val_main_v10_apply, val_main_v8_apply, val_main_call0_v1_apply, val_main_v13_apply, val_main_v11_apply, val_main_v9_apply,
    val_main_call1_v1_apply, val_main_v15_apply, val_main_cst_apply, val_main_call0_cst_apply, val_main_call1_cst_apply]
  simp only [e1, e2, e3, e4, val_main_call0_v0_apply, val_main_call1_v0_apply]
  generalize val_main_v6 (F := Ideal) x0 x5 = W
  simp only [Ideal.mulf_def, Ideal.hostDivf_def, Ideal.maximumf_def, Ideal.hostUnary_sqrt_def, Ideal.ofBits_def,
    Ideal.ofBits_zero_f32, zero_add]
  rfl

end Cert.ReferenceIdeal.RefValue

end
-- ==== Proof.lean ====
/-
  Label-similarity embeddings: the kernel program against its jnp reference, on the extended reals.

  Both programs gather the word vectors W[b, s, :] from the embedding table at the word indices (the same index
  arithmetic, the same gather: never opened here) and return them as their first and third results. The second result
  is, entry by entry, the cosine of a word vector and a label vector,
      (Σ_d W[b,s,d] · L[l,d]) / max (√(Σ_d W[b,s,d]²) · √(Σ_d L[l,d]²)) ε ,
  ε the value of one single-precision word that both programs carry. The kernel computes it on the vectors flattened
  to [4096, 512], 1024 rows per grid point, as a matrix product against the transposed labels over row sums of
  squares, and arranges the [4096, 128] output as [8, 512, 128]; the reference contracts the [8, 512, 512] vectors
  directly. The two agree by the row-major law r = 512·b + s, with no algebra beyond reading each operation at an
  index: sums are sums over the same 512 coordinates on both sides, so nothing needs the inputs to be finite.

  Modules: CosineSpec (the function, its two layouts, the row-major law), LibColumn (rank-2 keepdims forms and the
  last-axis sum), BlockCosine (the body's value at an entry), KernelArray (blocks to the output array, the host lines,
  the kernel program's run), ReferenceCosine (the reference's quotient stage is the function).
  The idealization rewrote nothing, so `preserves` is trivial; the three frames are the generated ones.
-/
import proofs.«141863_j2628519985196_1_alg».proof.Defs
import proofs.«141863_j2628519985196_1_alg».proof.Proof.Gen.Kernel
import proofs.«141863_j2628519985196_1_alg».proof.Proof.Gen.Kernel.Frame
import proofs.«141863_j2628519985196_1_alg».proof.Proof.Gen.KernelIdeal
import proofs.«141863_j2628519985196_1_alg».proof.Proof.Gen.KernelIdeal.Frame
import proofs.«141863_j2628519985196_1_alg».proof.Proof.Gen.ReferenceIdeal
import proofs.«141863_j2628519985196_1_alg».proof.Proof.Gen.ReferenceIdeal.Run
import proofs.«141863_j2628519985196_1_alg».proof.Proof.Gen.ReferenceIdeal.Read
import proofs.«141863_j2628519985196_1_alg».proof.Proof.Gen.Pre_finite_inputs
import proofs.«141863_j2628519985196_1_alg».proof.Proof.KernelArray
import proofs.«141863_j2628519985196_1_alg».proof.Proof.ReferenceCosine
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the three results dropped. -/
theorem frame_referenceIdeal : Cert.frame_ReferenceIdeal := fun m ρ _ =>
  (θ_run Cert.ReferenceIdeal.defs _ _).mono (fun _ h c => (h c).2.2.2) (Cert.ReferenceIdeal.Value.run (F := Ideal) m ρ)

/-- The ideal pass rewrote no operation. -/
theorem preserves : Cert.preserves_Kernel_KernelIdeal := trivial

/-- At the extended reals both programs end with the gathered vectors in the first and third results and their
    cosines with the labels in the second: the kernel program by its run read through the blocks, the reference by
    its run read one operation at a time; from arguments that agree, the same arrays. -/
theorem algebraic : Cert.algebraic_KernelIdeal_ReferenceIdeal := by
  intro m ρ m' ρ' _ hagree
  refine ⟨_, _, _, Cert.KernelIdeal.Array.run m ρ, ?_⟩
  refine (θ_run Cert.ReferenceIdeal.defs _ _).mono (fun _ h c => ?_) (Cert.ReferenceIdeal.Value.run (F := Ideal) m' ρ')
  obtain ⟨a0, a1, a2, a3, a4, a5, a6⟩ := hagree c
  refine ⟨(h c).1.trans ?_, (h c).2.1.trans ?_, (h c).2.2.1.trans ?_, (h c).2.2.2⟩
  · rw [a0, a5]; rfl
  · rw [Cert.ReferenceIdeal.Read.val_main_v17_eq, Cert.ReferenceIdeal.RefValue.quotient_eq_cubeCos, a0, a5, a6]; rfl
  · rw [a0, a5]; rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
